-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1231x1024 : Shape := ⟨2, ![1231, 1024]⟩
abbrev S1231 : Shape := ⟨1, ![1231]⟩
abbrev S4920x1024 : Shape := ⟨2, ![4920, 1024]⟩
abbrev S4920 : Shape := ⟨1, ![4920]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1231x1024 : S_.BroadcastsInDim S1231x1024 (![] : Fin 0 → Fin S1231x1024.rank)
  reducesTo_S1231x1024_S_d0_1 : S1231x1024.ReducesTo [0, 1] S_
  bcast_S_S1231 : S_.BroadcastsInDim S1231 (![] : Fin 0 → Fin S1231.rank)
  reducesTo_S1231_S_d0 : S1231.ReducesTo [0] S_
  bcast_S_S4920x1024 : S_.BroadcastsInDim S4920x1024 (![] : Fin 0 → Fin S4920x1024.rank)
  reducesTo_S4920x1024_S_d0_1 : S4920x1024.ReducesTo [0, 1] S_
  bcast_S_S4920 : S_.BroadcastsInDim S4920 (![] : Fin 0 → Fin S4920.rank)
  reducesTo_S4920_S_d0 : S4920.ReducesTo [0] S_

variable [Facts]

def fn_part1 {F : FTy → Type} [FloatOps F] (main_arg4 : FVec F S4920x1024 .f32) (main_arg5 : FVec F S4920 .f32) (main_v13 : IVec S_ 1) (main_v16 : IVec S1231x1024 1) : IVec S_ 1 :=
  let main_c_5 : IVec S_ 1 := constantI S_ 1 1#1
  let main_v17 : IVec S_ 1 := (fun x v => Host.reduce IntOp.andi x v reducesTo_S1231x1024_S_d0_1 h_S_) main_v16 main_c_5
  let main_v18 : IVec S_ 1 := andi main_v13 main_v17
  let main_v19 : FVec F S4920x1024 .f32 := Host.absf main_arg4
  let main_cst_6 : FVec F S_ .f32 := constant S_ .f32 0x7F800000#32
  let main_v20 : FVec F S4920x1024 .f32 := broadcastInDim S4920x1024 ![] bcast_S_S4920x1024 main_cst_6
  let main_v21 : IVec S4920x1024 1 := cmpf .olt main_v19 main_v20
  let main_c_7 : IVec S_ 1 := constantI S_ 1 1#1
  let main_v22 : IVec S_ 1 := (fun x v => Host.reduce IntOp.andi x v reducesTo_S4920x1024_S_d0_1 h_S_) main_v21 main_c_7
  let main_v23 : IVec S_ 1 := andi main_v18 main_v22
  let main_v24 : FVec F S4920 .f32 := Host.absf main_arg5
  let main_cst_8 : FVec F S_ .f32 := constant S_ .f32 0x7F800000#32
  let main_v25 : FVec F S4920 .f32 := broadcastInDim S4920 ![] bcast_S_S4920 main_cst_8
  let main_v26 : IVec S4920 1 := cmpf .olt main_v24 main_v25
  let main_c_9 : IVec S_ 1 := constantI S_ 1 1#1
  let main_v27 : IVec S_ 1 := (fun x v => Host.reduce IntOp.andi x v reducesTo_S4920_S_d0 h_S_) main_v26 main_c_9
  let main_v28 : IVec S_ 1 := andi main_v23 main_v27
  main_v28

def fn {F : FTy → Type} [FloatOps F] (main_arg0 : FVec F S16384x1024 .f32) (main_arg1 : FVec F S1231x1024 .f32) (main_arg2 : FVec F S1231 .f32) (main_arg3 : FVec F S1231x1024 .f32) (main_arg4 : FVec F S4920x1024 .f32) (main_arg5 : FVec F S4920 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1231x1024 .f32 := Host.absf main_arg1
  let main_cst_0 : FVec F S_ .f32 := constant S_ .f32 0x7F800000#32
  let main_v5 : FVec F S1231x1024 .f32 := broadcastInDim S1231x1024 ![] bcast_S_S1231x1024 main_cst_0
  let main_v6 : IVec S1231x1024 1 := cmpf .olt main_v4 main_v5
  let main_c_1 : IVec S_ 1 := constantI S_ 1 1#1
  let main_v7 : IVec S_ 1 := (fun x v => Host.reduce IntOp.andi x v reducesTo_S1231x1024_S_d0_1 h_S_) main_v6 main_c_1
  let main_v8 : IVec S_ 1 := andi main_v3 main_v7
  let main_v9 : FVec F S1231 .f32 := Host.absf main_arg2
  let main_cst_2 : FVec F S_ .f32 := constant S_ .f32 0x7F800000#32
  let main_v10 : FVec F S1231 .f32 := broadcastInDim S1231 ![] bcast_S_S1231 main_cst_2
  let main_v11 : IVec S1231 1 := cmpf .olt main_v9 main_v10
  let main_c_3 : IVec S_ 1 := constantI S_ 1 1#1
  let main_v12 : IVec S_ 1 := (fun x v => Host.reduce IntOp.andi x v reducesTo_S1231_S_d0 h_S_) main_v11 main_c_3
  let main_v13 : IVec S_ 1 := andi main_v8 main_v12
  let main_v14 : FVec F S1231x1024 .f32 := Host.absf main_arg3
  let main_cst_4 : FVec F S_ .f32 := constant S_ .f32 0x7F800000#32
  let main_v15 : FVec F S1231x1024 .f32 := broadcastInDim S1231x1024 ![] bcast_S_S1231x1024 main_cst_4
  let main_v16 : IVec S1231x1024 1 := cmpf .olt main_v14 main_v15
  fn_part1 (F := F) main_arg4 main_arg5 main_v13 main_v16
-- ==== Kernel.lean ====
abbrev S16384x1024 : Shape := ⟨2, ![16384, 1024]⟩
abbrev S1231x1024 : Shape := ⟨2, ![1231, 1024]⟩
abbrev S1231 : Shape := ⟨1, ![1231]⟩
abbrev S4920x1024 : Shape := ⟨2, ![4920, 1024]⟩
abbrev S4920 : Shape := ⟨1, ![4920]⟩
abbrev S_ : Shape := ⟨0, ![]⟩
abbrev S1280x1024 : Shape := ⟨2, ![1280, 1024]⟩
abbrev S1280 : Shape := ⟨1, ![1280]⟩
abbrev S1x1280 : Shape := ⟨2, ![1, 1280]⟩
abbrev S4992x1024 : Shape := ⟨2, ![4992, 1024]⟩
abbrev S4992 : Shape := ⟨1, ![4992]⟩
abbrev S1x4992 : Shape := ⟨2, ![1, 4992]⟩
abbrev S16384x1280 : Shape := ⟨2, ![16384, 1280]⟩
abbrev S512x1024 : Shape := ⟨2, ![512, 1024]⟩
abbrev S640x1024 : Shape := ⟨2, ![640, 1024]⟩
abbrev S1x640 : Shape := ⟨2, ![1, 640]⟩
abbrev S512x640 : Shape := ⟨2, ![512, 640]⟩
abbrev S16384x4992 : Shape := ⟨2, ![16384, 4992]⟩
abbrev S1664x1024 : Shape := ⟨2, ![1664, 1024]⟩
abbrev S1x1664 : Shape := ⟨2, ![1, 1664]⟩
abbrev S512x1664 : Shape := ⟨2, ![512, 1664]⟩
abbrev S16384x1231 : Shape := ⟨2, ![16384, 1231]⟩
abbrev S16384x4920 : Shape := ⟨2, ![16384, 4920]⟩

abbrev nBuf : Space → Nat
  | .hbm => 27
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1231x1024, .f32⟩
  | .hbm, ⟨2, _⟩ => ⟨S1231, .f32⟩
  | .hbm, ⟨3, _⟩ => ⟨S1231x1024, .f32⟩
  | .hbm, ⟨4, _⟩ => ⟨S4920x1024, .f32⟩
  | .hbm, ⟨5, _⟩ => ⟨S4920, .f32⟩
  | .hbm, ⟨6, _⟩ => ⟨S_, .i32⟩
  | .hbm, ⟨7, _⟩ => ⟨S_, .f32⟩
  | .hbm, ⟨8, _⟩ => ⟨S1280x1024, .f32⟩
  | .hbm, ⟨9, _⟩ => ⟨S_, .i32⟩
  | .hbm, ⟨10, _⟩ => ⟨S_, .f32⟩
  | .hbm, ⟨11, _⟩ => ⟨S1280x1024, .f32⟩
  | .hbm, ⟨12, _⟩ => ⟨S_, .i32⟩
  | .hbm, ⟨13, _⟩ => ⟨S_, .f32⟩
  | .hbm, ⟨14, _⟩ => ⟨S1280, .f32⟩
  | .hbm, ⟨15, _⟩ => ⟨S1x1280, .f32⟩
  | .hbm, ⟨16, _⟩ => ⟨S_, .i32⟩
  | .hbm, ⟨17, _⟩ => ⟨S_, .f32⟩
  | .hbm, ⟨18, _⟩ => ⟨S4992x1024, .f32⟩
  | .hbm, ⟨19, _⟩ => ⟨S_, .i32⟩
  | .hbm, ⟨20, _⟩ => ⟨S_, .f32⟩
  | .hbm, ⟨21, _⟩ => ⟨S4992, .f32⟩
  | .hbm, ⟨22, _⟩ => ⟨S1x4992, .f32⟩
  | .hbm, ⟨23, _⟩ => ⟨S16384x1280, .f32⟩
  | .hbm, ⟨24, _⟩ => ⟨S16384x4992, .f32⟩
  | .hbm, ⟨25, _⟩ => ⟨S16384x1231, .f32⟩
  | .hbm, ⟨26, _⟩ => ⟨S16384x4920, .f32⟩
  | .local _ .vmem, ⟨0, _⟩ => ⟨S512x1024, .f32⟩
  | .local _ .vmem, ⟨1, _⟩ => ⟨S512x1024, .f32⟩
  | .local _ .vmem, ⟨2, _⟩ => ⟨S640x1024, .f32⟩
  | .local _ .vmem, ⟨3, _⟩ => ⟨S640x1024, .f32⟩
  | .local _ .vmem, ⟨4, _⟩ => ⟨S1x640, .f32⟩
  | .local _ .vmem, ⟨5, _⟩ => ⟨S512x640, .f32⟩
  | .local _ .vmem, ⟨6, _⟩ => ⟨S512x640, .f32⟩
  | .local _ .vmem, ⟨7, _⟩ => ⟨S512x1024, .f32⟩
  | .local _ .vmem, ⟨8, _⟩ => ⟨S512x1024, .f32⟩
  | .local _ .vmem, ⟨9, _⟩ => ⟨S1664x1024, .f32⟩
  | .local _ .vmem, ⟨10, _⟩ => ⟨S1x1664, .f32⟩
  | .local _ .vmem, ⟨11, _⟩ => ⟨S512x1664, .f32⟩
  | .local _ .vmem, ⟨12, _⟩ => ⟨S512x1664, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_call3_v0 : Ref sig .tc := ⟨.hbm, 17, rfl⟩
abbrev main_v4 : Ref sig .tc := ⟨.hbm, 18, rfl⟩
abbrev main_c_3 : Ref sig .tc := ⟨.hbm, 19, rfl⟩
abbrev main_call4_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S640x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S640x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![3, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1664x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1664 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S512x1664 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  pads_S1231x1024_S1280x1024_0490_000 : S1231x1024.Pads (![0, 0] : Fin 2 → Nat) ![49, 0] ![0, 0] S1280x1024
  h_S_ : 0 < S_.numel
  pads_S1231_S1280_0490 : S1231.Pads (![0] : Fin 1 → Nat) ![49] ![0] S1280
  shapeCasts_S1280_S1x1280 : S1280.ShapeCasts S1x1280
  pads_S4920x1024_S4992x1024_0720_000 : S4920x1024.Pads (![0, 0] : Fin 2 → Nat) ![72, 0] ![0, 0] S4992x1024
  pads_S4920_S4992_0720 : S4920.Pads (![0] : Fin 1 → Nat) ![72] ![0] S4992
  shapeCasts_S4992_S1x4992 : S4992.ShapeCasts S1x4992
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  inb_S512x640_S512x640_0_0 : ∀ a, (![0, 0] : Fin 2 → Nat) a + S512x640.size a ≤ S512x640.size a
  h_S512x640 : 0 < S512x640.numel
  inb_S1664x1024_S1664x1024_0_0 : ∀ a, (![0, 0] : Fin 2 → Nat) a + S1664x1024.size a ≤ S1664x1024.size a
  h_S1664x1024 : 0 < S1664x1024.numel
  shapeCasts_S1664x1024_S1664x1024 : S1664x1024.ShapeCasts S1664x1024
  inb_S1x1664_S1x1664_0_0 : ∀ a, (![0, 0] : Fin 2 → Nat) a + S1x1664.size a ≤ S1x1664.size a
  h_S1x1664 : 0 < S1x1664.numel
  shapeCasts_S1x1664_S1x1664 : S1x1664.ShapeCasts S1x1664
  broadcasts_S1x1664_S512x1664 : S1x1664.Broadcasts S512x1664
  inb_S512x1664_S512x1664_0_0 : ∀ a, (![0, 0] : Fin 2 → Nat) a + S512x1664.size a ≤ S512x1664.size a
  h_S512x1664 : 0 < S512x1664.numel
  slices_S16384x1280_S16384x1231_0_0 : S16384x1280.Slices ![0, 0] S16384x1231
  slices_S16384x4992_S16384x4920_0_0 : S16384x4992.Slices ![0, 0] S16384x4920
  dot_S512x1024_S640x1024_S512x640_1_1_0_0_n_n_wf : DotDims.WF S512x1024 S640x1024 S512x640 [1] [1] [0] [0] [] []
  dot_S512x1024_S1664x1024_S512x1664_1_1_0_0_n_n_wf : DotDims.WF S512x1024 S1664x1024 S512x1664 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x1024.size a ≤ S1280x1024.size a
  hwx0_1 : ∀ i : grid0.Coords, EltTy.bits .f32 = 32 ∨ (Rect.block (s := S1280x1024) S640x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x1024.size a ≤ S1280x1024.size a
  hwx0_2 : ∀ i : grid0.Coords, EltTy.bits .f32 = 32 ∨ (Rect.block (s := S1280x1024) S640x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x1280.size a
  hwx0_3 : ∀ i : grid0.Coords, EltTy.bits .f32 = 32 ∨ (Rect.block (s := S1x1280) S1x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x640.size a ≤ S16384x1280.size a
  hwx0_4 : ∀ i : grid0.Coords, EltTy.bits .f32 = 32 ∨ (Rect.block (s := S16384x1280) S512x640.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1664x1024.size a ≤ S4992x1024.size a
  hwx1_1 : ∀ i : grid1.Coords, EltTy.bits .f32 = 32 ∨ (Rect.block (s := S4992x1024) S1664x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1664.size a ≤ S1x4992.size a
  hwx1_2 : ∀ i : grid1.Coords, EltTy.bits .f32 = 32 ∨ (Rect.block (s := S1x4992) S1x1664.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1664.size a ≤ S16384x4992.size a
  hwx1_3 : ∀ i : grid1.Coords, EltTy.bits .f32 = 32 ∨ (Rect.block (s := S16384x4992) S512x1664.size (cc1_transform_3 i) (hinb1_3 i)).WholeWords (EltTy.packing .f32)

variable [Facts₀]

def dot_S512x1024_S640x1024_S512x640_1_1_0_0_n_n : DotDims S512x1024 S640x1024 S512x640 where
  lhsContracting := [1]
  rhsContracting := [1]
  lhsNonContracting := [0]
  rhsNonContracting := [0]
  lhsBatch := []
  rhsBatch := []
  wf := dot_S512x1024_S640x1024_S512x640_1_1_0_0_n_n_wf
def dot_S512x1024_S1664x1024_S512x1664_1_1_0_0_n_n : DotDims S512x1024 S1664x1024 S512x1664 where
  lhsContracting := [1]
  rhsContracting := [1]
  lhsNonContracting := [0]
  rhsNonContracting := [0]
  lhsBatch := []
  rhsBatch := []
  wf := dot_S512x1024_S1664x1024_S512x1664_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S640x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S640x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1664x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1664.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1664.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S1231x1024 : Shape := ⟨2, ![1231, 1024]⟩
abbrev S1231 : Shape := ⟨1, ![1231]⟩
abbrev S4920x1024 : Shape := ⟨2, ![4920, 1024]⟩
abbrev S4920 : Shape := ⟨1, ![4920]⟩
abbrev S_ : Shape := ⟨0, ![]⟩
abbrev S16384x1231 : Shape := ⟨2, ![16384, 1231]⟩
abbrev S1x1231 : Shape := ⟨2, ![1, 1231]⟩
abbrev S16384x4920 : Shape := ⟨2, ![16384, 4920]⟩
abbrev S1x4920 : Shape := ⟨2, ![1, 4920]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1231x1024, .f32⟩
  | .hbm, ⟨2, _⟩ => ⟨S1231, .f32⟩
  | .hbm, ⟨3, _⟩ => ⟨S1231x1024, .f32⟩
  | .hbm, ⟨4, _⟩ => ⟨S4920x1024, .f32⟩
  | .hbm, ⟨5, _⟩ => ⟨S4920, .f32⟩
  | .hbm, ⟨6, _⟩ => ⟨S_, .f32⟩
  | .hbm, ⟨7, _⟩ => ⟨S1231x1024, .f32⟩
  | .hbm, ⟨8, _⟩ => ⟨S1231x1024, .f32⟩
  | .hbm, ⟨9, _⟩ => ⟨S1231x1024, .f32⟩
  | .hbm, ⟨10, _⟩ => ⟨S1231x1024, .f32⟩
  | .hbm, ⟨11, _⟩ => ⟨S1231x1024, .i1⟩
  | .hbm, ⟨12, _⟩ => ⟨S1231x1024, .f32⟩
  | .hbm, ⟨13, _⟩ => ⟨S1231x1024, .f32⟩
  | .hbm, ⟨14, _⟩ => ⟨S1231x1024, .f32⟩
  | .hbm, ⟨15, _⟩ => ⟨S1231x1024, .f32⟩
  | .hbm, ⟨16, _⟩ => ⟨S1231x1024, .f32⟩
  | .hbm, ⟨17, _⟩ => ⟨S1231x1024, .f32⟩
  | .hbm, ⟨18, _⟩ => ⟨S1231x1024, .f32⟩
  | .hbm, ⟨19, _⟩ => ⟨S1231x1024, .f32⟩
  | .hbm, ⟨20, _⟩ => ⟨S16384x1231, .f32⟩
  | .hbm, ⟨21, _⟩ => ⟨S16384x1024, .f32⟩
  | .hbm, ⟨22, _⟩ => ⟨S16384x1231, .f32⟩
  | .hbm, ⟨23, _⟩ => ⟨S_, .f32⟩
  | .hbm, ⟨24, _⟩ => ⟨S16384x1231, .f32⟩
  | .hbm, ⟨25, _⟩ => ⟨S16384x1231, .f32⟩
  | .hbm, ⟨26, _⟩ => ⟨S_, .f32⟩
  | .hbm, ⟨27, _⟩ => ⟨S16384x1231, .f32⟩
  | .hbm, ⟨28, _⟩ => ⟨S16384x1231, .f32⟩
  | .hbm, ⟨29, _⟩ => ⟨S16384x1231, .f32⟩
  | .hbm, ⟨30, _⟩ => ⟨S_, .f32⟩
  | .hbm, ⟨31, _⟩ => ⟨S16384x1231, .f32⟩
  | .hbm, ⟨32, _⟩ => ⟨S16384x1231, .f32⟩
  | .hbm, ⟨33, _⟩ => ⟨S16384x1231, .f32⟩
  | .hbm, ⟨34, _⟩ => ⟨S1x1231, .f32⟩
  | .hbm, ⟨35, _⟩ => ⟨S16384x1231, .f32⟩
  | .hbm, ⟨36, _⟩ => ⟨S16384x1231, .f32⟩
  | .hbm, ⟨37, _⟩ => ⟨S16384x4920, .f32⟩
  | .hbm, ⟨38, _⟩ => ⟨S1x4920, .f32⟩
  | .hbm, ⟨39, _⟩ => ⟨S16384x4920, .f32⟩
  | .hbm, ⟨40, _⟩ => ⟨S16384x4920, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S_S1231x1024 : S_.BroadcastsInDim S1231x1024 (![] : Fin 0 → Fin S1231x1024.rank)
  bcast_S_S16384x1231 : S_.BroadcastsInDim S16384x1231 (![] : Fin 0 → Fin S16384x1231.rank)
  bcast_S1231_S1x1231_1 : S1231.BroadcastsInDim S1x1231 (![1] : Fin 1 → Fin S1x1231.rank)
  bcast_S1x1231_S16384x1231_0_1 : S1x1231.BroadcastsInDim S16384x1231 (![0, 1] : Fin 2 → Fin S16384x1231.rank)
  bcast_S4920_S1x4920_1 : S4920.BroadcastsInDim S1x4920 (![1] : Fin 1 → Fin S1x4920.rank)
  bcast_S1x4920_S16384x4920_0_1 : S1x4920.BroadcastsInDim S16384x4920 (![0, 1] : Fin 2 → Fin S16384x4920.rank)
  dot_S16384x1024_S1231x1024_S16384x1231_1_1_0_0_n_n_wf : DotDims.WF S16384x1024 S1231x1024 S16384x1231 [1] [1] [0] [0] [] []
  dot_S16384x1024_S4920x1024_S16384x4920_1_1_0_0_n_n_wf : DotDims.WF S16384x1024 S4920x1024 S16384x4920 [1] [1] [0] [0] [] []

variable [Facts₀]

def dot_S16384x1024_S1231x1024_S16384x1231_1_1_0_0_n_n : DotDims S16384x1024 S1231x1024 S16384x1231 where
  lhsContracting := [1]
  rhsContracting := [1]
  lhsNonContracting := [0]
  rhsNonContracting := [0]
  lhsBatch := []
  rhsBatch := []
  wf := dot_S16384x1024_S1231x1024_S16384x1231_1_1_0_0_n_n_wf
def dot_S16384x1024_S4920x1024_S16384x4920_1_1_0_0_n_n : DotDims S16384x1024 S4920x1024 S16384x4920 where
  lhsContracting := [1]
  rhsContracting := [1]
  lhsNonContracting := [0]
  rhsNonContracting := [0]
  lhsBatch := []
  rhsBatch := []
  wf := dot_S16384x1024_S4920x1024_S16384x4920_1_1_0_0_n_n_wf

class Facts : Prop extends Facts₀ where

variable [Facts]
-- ==== Proof.Heads.lean ====
/-
  The two heads of the layer, on the extended reals.

  Classification scores. For a proposal's feature row x (1024 entries), a class's mean weights w, its variance
  parameters s and its bias b:
      m = Σ_k x_k · w_k,        v = Σ_k x_k² · softplus(s_k),
      score = (20 · (1 + (π/8) · v)^(-1/2)) · m + b,
  with softplus in its overflow-free form  softplus(s) = max(s, 0) + log(1 + e^(-|s - 0|)),  |a| = max(a, -a).
  Box deltas:  Σ_k x_k · w_k + b.

  Both programs spell softplus behind the guard "if s - 0 ≠ s - 0 then s + 0 else …", a test that can only succeed on a
  value different from itself; no extended real is, so the guard never fires. One of the two spells the negation
  as 0 - |·|. The two lemmas below reduce either spelling to `softplus`. The float literals (0, π/8 rounded to
  f32, 1, 20) stay the words they are: the same word stands at the same place on both sides, and only the zero
  word is evaluated, where a spelling subtracts from it.
-/
import Idealize.ShloMosaic.PureOps.Ideal.Laws
import Idealize.ShloMosaic.Lib.ValueIdx

noncomputable section

namespace Cert.Heads

open Idealize.ShloMosaic Idealize.ShloMosaic.ValueIdx

/-- The value of the f32 zero word. -/
abbrev z : EReal := Ideal.ofBits .f32 0x00000000#32
/-- π/8 rounded to f32, as both programs carry it. -/
abbrev cPi8 : EReal := Ideal.ofBits .f32 0x3EC90FDB#32
/-- The word of 1. -/
abbrev cOne : EReal := Ideal.ofBits .f32 0x3F800000#32
/-- The word of 20, the cosine scale. -/
abbrev cScale : EReal := Ideal.ofBits .f32 0x41A00000#32

/-- softplus(s) = max(s, 0) + log(1 + e^(-|s - 0|)). -/
def softplus (s : EReal) : EReal :=
  max s z + Ideal.log1p (Ideal.exp (-(max (s - z) (-(s - z)))))

/-- No extended real differs from itself, under the ordered or the unordered reading of "≠". -/
theorem cmp_ne_self (a : EReal) : Ideal.cmp .one a a = 0#1 ∧ Ideal.cmp .une a a = 0#1 := by
  constructor <;> simp [Ideal.cmp]

/-- Subtracting from the zero word is negation. -/
theorem z_sub (a : EReal) : z - a = -a := by
  show Ideal.ofBits .f32 0x00000000#32 - a = -a
  rw [Ideal.ofBits_zero_f32, zero_sub]

/-- The guarded spelling with the negation written 0 - |·| is softplus. -/
theorem softplus_of_sub_form (s : EReal) :
    Scalar.select (Ideal.cmp .one (s - z) (s - z)) (s + z)
        (max s z + Ideal.log1p (Ideal.exp (z - max (s - z) (-(s - z))))) = softplus s := by
  rw [(cmp_ne_self _).1, select_zero, z_sub]
  rfl

/-- The guarded spelling with a plain negation is softplus. -/
theorem softplus_of_neg_form (s : EReal) :
    Scalar.select (Ideal.cmp .une (s - z) (s - z)) (s + z)
        (max s z + Ideal.log1p (Ideal.exp (-(max (s - z) (-(s - z)))))) = softplus s := by
  rw [(cmp_ne_self _).2, select_zero]
  rfl

/-- One score from a feature row, a class's mean-weight row, its variance-parameter row and its bias. -/
def scoreAt (x w s : Fin 1024 → EReal) (b : EReal) : EReal :=
  cScale * Ideal.rsqrt (cOne + cPi8 * ∑ k : Fin 1024, (x k * x k) * softplus (s k)) * (∑ k : Fin 1024, x k * w k) + b

/-- One box delta from a feature row, a weight row and a bias. -/
def deltaAt (x w : Fin 1024 → EReal) (b : EReal) : EReal :=
  (∑ k : Fin 1024, x k * w k) + b

/-- The score of proposal `n` for class `c`, from the whole arrays. -/
def scoreEntry (X : (⟨2, ![16384, 1024]⟩ : Shape).Idx → EReal) (W S : (⟨2, ![1231, 1024]⟩ : Shape).Idx → EReal)
    (B : (⟨1, ![1231]⟩ : Shape).Idx → EReal) (n : Fin 16384) (c : Fin 1231) : EReal :=
  scoreAt (fun k => X (ix2 n k)) (fun k => W (ix2 c k)) (fun k => S (ix2 c k)) (B (ix1 c))

/-- The box delta of proposal `n` in output column `r`, from the whole arrays. -/
def deltaEntry (X : (⟨2, ![16384, 1024]⟩ : Shape).Idx → EReal) (W : (⟨2, ![4920, 1024]⟩ : Shape).Idx → EReal)
    (B : (⟨1, ![4920]⟩ : Shape).Idx → EReal) (n : Fin 16384) (r : Fin 4920) : EReal :=
  deltaAt (fun k => X (ix2 n k)) (fun k => W (ix2 r k)) (B (ix1 r))

/-- The scores as one array. -/
def scores (X : (⟨2, ![16384, 1024]⟩ : Shape).Idx → EReal) (W S : (⟨2, ![1231, 1024]⟩ : Shape).Idx → EReal)
    (B : (⟨1, ![1231]⟩ : Shape).Idx → EReal) : (⟨2, ![16384, 1231]⟩ : Shape).Idx → EReal :=
  fun i => scoreEntry X W S B (i 0) (i 1)

/-- The box deltas as one array. -/
def deltas (X : (⟨2, ![16384, 1024]⟩ : Shape).Idx → EReal) (W : (⟨2, ![4920, 1024]⟩ : Shape).Idx → EReal)
    (B : (⟨1, ![4920]⟩ : Shape).Idx → EReal) : (⟨2, ![16384, 4920]⟩ : Shape).Idx → EReal :=
  fun i => deltaEntry X W B (i 0) (i 1)

end Cert.Heads

end
-- ==== Proof.RefHeads.lean ====
/-
  The reference computes the two heads. Its scores array is, stage by stage, the score formula: softplus of
  the variance parameters (behind a guard that never fires on the extended reals), the two products against
  the feature rows as sums over the 1024 features, the scale, the inverse square root, the bias row broadcast
  down the proposals. Its box deltas are the third product plus the broadcast bias row. Each stage is read at
  an index (n, c) and the whole is the specification's entry at (n, c).
-/
import proofs.«134766_j23914377904579_2_alg».proof.Proof.Gen.ReferenceIdeal.Read
import proofs.«134766_j23914377904579_2_alg».proof.Proof.Heads

noncomputable section

namespace Cert.RefHeads

open Cert.ReferenceIdeal Cert.ReferenceIdeal.Read Idealize.ShloMosaic Idealize.ShloMosaic.ValueIdx Cert.Heads

/-- The reference's softplus stage at an index is softplus of the parameter there. -/
theorem softplus_stage (x3 : (⟨S1231x1024, .f32⟩ : BufTy).Contents (Elt Ideal)) (j : S1231x1024.Idx) :
    val_main_v0 (F := Ideal) x3 j = softplus (x3 j) := by
  rw [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  exact softplus_of_neg_form (x3 j)

/-- The reference's scores array is the specification's. -/
theorem scores_stage (x0 : (⟨S16384x1024, .f32⟩ : BufTy).Contents (Elt Ideal)) (x1 : (⟨S1231x1024, .f32⟩ : BufTy).Contents (Elt Ideal))
    (x2 : (⟨S1231, .f32⟩ : BufTy).Contents (Elt Ideal)) (x3 : (⟨S1231x1024, .f32⟩ : BufTy).Contents (Elt Ideal)) :
    val_main_v14 (F := Ideal) x0 x1 x2 x3 = scores x0 x1 x3 x2 := by
  funext i
  obtain ⟨n, c, rfl⟩ : ∃ (n : Fin 16384) (c : Fin 1231), i = ix2 n c := ⟨i 0, i 1, eq_ix2 i⟩
  have el1 : ∀ k, lidx_main_v1 (ix2 n c) k = ix2 n k := fun k => funext fun a => Fin.ext (by
    match a with | ⟨0, _⟩ => rfl | ⟨1, _⟩ => rfl)
  have er1 : ∀ k, ridx_main_v1 (ix2 n c) k = ix2 c k := fun k => funext fun a => Fin.ext (by
    match a with | ⟨0, _⟩ => rfl | ⟨1, _⟩ => rfl)
  have el3 : ∀ k, lidx_main_v3 (ix2 n c) k = ix2 n k := fun k => funext fun a => Fin.ext (by
    match a with | ⟨0, _⟩ => rfl | ⟨1, _⟩ => rfl)
  have er3 : ∀ k, ridx_main_v3 (ix2 n c) k = ix2 c k := fun k => funext fun a => Fin.ext (by
    match a with | ⟨0, _⟩ => rfl | ⟨1, _⟩ => rfl)
  have eb : idx_main_v12 (idx_main_v13 (ix2 n c)) = ix1 c := funext fun a => Fin.ext (by
    match a with | ⟨0, _⟩ => rfl)
  rw [val_main_v14_apply, val_main_v11_apply, val_main_v10_apply, val_main_v9_apply, val_main_cst_1_apply,
    val_main_v8_apply, val_main_v7_apply, val_main_v6_apply, val_main_cst_0_apply, val_main_v5_apply,
    val_main_v4_apply, val_main_cst_apply, val_main_v3_apply, val_main_v1_apply, val_main_v13_apply,
    val_main_v12_apply, eb]
  simp only [val_main_v2_apply, softplus_stage, el1, er1, el3, er3]
  rfl

/-- The reference's box-delta array is the specification's. -/
theorem deltas_stage (x0 : (⟨S16384x1024, .f32⟩ : BufTy).Contents (Elt Ideal)) (x4 : (⟨S4920x1024, .f32⟩ : BufTy).Contents (Elt Ideal))
    (x5 : (⟨S4920, .f32⟩ : BufTy).Contents (Elt Ideal)) :
    val_main_v18 (F := Ideal) x0 x4 x5 = deltas x0 x4 x5 := by
  funext i
  obtain ⟨n, r, rfl⟩ : ∃ (n : Fin 16384) (r : Fin 4920), i = ix2 n r := ⟨i 0, i 1, eq_ix2 i⟩
  have el : ∀ k, lidx_main_v15 (ix2 n r) k = ix2 n k := fun k => funext fun a => Fin.ext (by
    match a with | ⟨0, _⟩ => rfl | ⟨1, _⟩ => rfl)
  have er : ∀ k, ridx_main_v15 (ix2 n r) k = ix2 r k := fun k => funext fun a => Fin.ext (by
    match a with | ⟨0, _⟩ => rfl | ⟨1, _⟩ => rfl)
  have eb : idx_main_v16 (idx_main_v17 (ix2 n r)) = ix1 r := funext fun a => Fin.ext (by
    match a with | ⟨0, _⟩ => rfl)
  rw [val_main_v18_apply, val_main_v15_apply, val_main_v17_apply, val_main_v16_apply, eb]
  simp only [el, er]
  rfl

end Cert.RefHeads

end
-- ==== Proof.ScoresBody.lean ====
/-
  One grid point of the scores kernel. It holds a block of 512 feature rows, blocks of 640 rows of the padded
  mean weights and of the padded variance parameters, and 640 padded biases as one row, and writes the 512 × 640
  block whose entry (p, q) is the score formula of feature row p, weight row q, parameter row q and bias q:
  the two products against the transposed weight blocks are sums over the 1024 features (roundings to bf16 are
  the identity on the extended reals), the softplus is spelt behind its guard with the negation written 0 - |·|,
  and the bias row is broadcast down the 512 rows.
-/
import proofs.«134766_j23914377904579_2_alg».proof.Proof.Gen.KernelIdeal.Skeleton
import proofs.«134766_j23914377904579_2_alg».proof.Proof.Heads
import Idealize.ShloMosaic.Lib.Pipeline.Value
import Idealize.ShloMosaic.Lib.ValueLayout
import Idealize.ShloMosaic.PureOps.Ideal.Laws

noncomputable section

namespace Cert.KernelHeads

open Cert.KernelIdeal Cert.KernelIdeal.Gen Idealize.ShloMosaic Idealize.ShloMosaic.ValueIdx Cert.Heads

/-- The left operand's index for output (p, q) and contraction index `kk`: row p … -/
theorem scores_lhs_0 (j : S512x640.Idx) (kk : dot_S512x1024_S640x1024_S512x640_1_1_0_0_n_n.contr.Idx) :
    (dot_S512x1024_S640x1024_S512x640_1_1_0_0_n_n.lhsIdx j kk 0).val = (j 0).val := by
  unfold DotDims.lhsIdx
  rw [dif_neg (show ¬(0 : Fin S512x1024.rank) ∈ dot_S512x1024_S640x1024_S512x640_1_1_0_0_n_n.lhsBatch by decide), dif_pos (show (0 : Fin S512x1024.rank) ∈ dot_S512x1024_S640x1024_S512x640_1_1_0_0_n_n.lhsNonContracting by decide)]
  rfl
/-- … column the contraction coordinate. -/
theorem scores_lhs_1 (j : S512x640.Idx) (kk : dot_S512x1024_S640x1024_S512x640_1_1_0_0_n_n.contr.Idx) :
    (dot_S512x1024_S640x1024_S512x640_1_1_0_0_n_n.lhsIdx j kk 1).val = (kk ⟨0, by decide⟩).val :=
  dot_S512x1024_S640x1024_S512x640_1_1_0_0_n_n.lhsIdx_val_of_single rfl j kk
/-- The right operand's index: row q … -/
theorem scores_rhs_0 (j : S512x640.Idx) (kk : dot_S512x1024_S640x1024_S512x640_1_1_0_0_n_n.contr.Idx) :
    (dot_S512x1024_S640x1024_S512x640_1_1_0_0_n_n.rhsIdx j kk 0).val = (j 1).val := by
  unfold DotDims.rhsIdx
  rw [dif_neg (show ¬(0 : Fin S640x1024.rank) ∈ dot_S512x1024_S640x1024_S512x640_1_1_0_0_n_n.rhsBatch by decide), dif_pos (show (0 : Fin S640x1024.rank) ∈ dot_S512x1024_S640x1024_S512x640_1_1_0_0_n_n.rhsNonContracting by decide)]
  rfl
/-- … column the contraction coordinate. -/
theorem scores_rhs_1 (j : S512x640.Idx) (kk : dot_S512x1024_S640x1024_S512x640_1_1_0_0_n_n.contr.Idx) :
    (dot_S512x1024_S640x1024_S512x640_1_1_0_0_n_n.rhsIdx j kk 1).val = (kk ⟨0, by decide⟩).val :=
  dot_S512x1024_S640x1024_S512x640_1_1_0_0_n_n.rhsIdx_val_of_single rfl j kk

/-- A block of feature rows against a block of weight rows, both contracted on their 1024 features, into a zero
    accumulator: entry (p, q) is the sum over the features of the products of row p and row q. -/
theorem scores_matmul_apply {φ₁ φ₂ : FTy} (A : FVec Ideal S512x1024 φ₁) (B : FVec Ideal S640x1024 φ₂) (p : Fin 512) (q : Fin 640) :
    matmul (F := Ideal) dot_S512x1024_S640x1024_S512x640_1_1_0_0_n_n none A B (constant (F := Ideal) S512x640 .f32 0x00000000#32) (ix2 p q)
      = ∑ k : Fin 1024, A (ix2 p k) * B (ix2 q k) := by
  show FloatOps.matmul dot_S512x1024_S640x1024_S512x640_1_1_0_0_n_n none A B (constant (F := Ideal) S512x640 .f32 0x00000000#32) (ix2 p q) = _
  rw [Ideal.matmul_constant_zero_apply, ← Equiv.sum_comp (contrEquiv1 dot_S512x1024_S640x1024_S512x640_1_1_0_0_n_n 1024 rfl rfl).symm]
  refine Finset.sum_congr rfl fun k _ => ?_
  have hk := contrEquiv1_symm_val dot_S512x1024_S640x1024_S512x640_1_1_0_0_n_n 1024 rfl rfl k
  have el : dot_S512x1024_S640x1024_S512x640_1_1_0_0_n_n.lhsIdx (ix2 p q) ((contrEquiv1 dot_S512x1024_S640x1024_S512x640_1_1_0_0_n_n 1024 rfl rfl).symm k) = ix2 p k := funext fun a => Fin.ext (by
    match a with
    | ⟨0, _⟩ => exact scores_lhs_0 _ _
    | ⟨1, _⟩ => exact (scores_lhs_1 _ _).trans hk)
  have er : dot_S512x1024_S640x1024_S512x640_1_1_0_0_n_n.rhsIdx (ix2 p q) ((contrEquiv1 dot_S512x1024_S640x1024_S512x640_1_1_0_0_n_n 1024 rfl rfl).symm k) = ix2 q k := funext fun a => Fin.ext (by
    match a with
    | ⟨0, _⟩ => exact scores_rhs_0 _ _
    | ⟨1, _⟩ => exact (scores_rhs_1 _ _).trans hk)
  rw [el, er]

/-- The block the scores kernel stores, at (p, q): the score of the loaded feature row p against the loaded
    weight row q, parameter row q and bias q. -/
theorem scores_payload_apply (x0 : Vec Ideal S512x1024 .f32) (x1 x2 : Vec Ideal S640x1024 .f32) (x3 : Vec Ideal S1x640 .f32)
    (p : Fin 512) (q : Fin 640) :
    k0_pay1 (F := Ideal) x0 x1 x2 x3 (ix2 p q)
      = scoreAt (fun k => x0 (ix2 p k)) (fun k => x1 (ix2 q k)) (fun k => x2 (ix2 q k)) (x3 (ix2 (0 : Fin 1) q)) := by
  unfold k0_pay1 scoreAt
  dsimp only
  rw [shapeCast_self, shapeCast_self, shapeCast_self]
  refine congrArg₂ (· + ·) (congrArg₂ (· * ·) (congrArg (fun v => cScale * Ideal.rsqrt (cOne + cPi8 * v)) ?_) ?_) ?_
  · refine (scores_matmul_apply _ _ p q).trans (Finset.sum_congr rfl fun k _ => ?_)
    exact congrArg (_ * ·) (softplus_of_sub_form _)
  · exact scores_matmul_apply _ _ p q
  · exact broadcastTo_1b_ab_apply _ _ p q

end Cert.KernelHeads

end
-- ==== Proof.ScoresArray.lean ====
/-
  The scores region as a whole. Its grid is 2 class blocks × 32 proposal blocks; point t with output block
  index (nb, cb) reads proposal rows 512·nb … 512·nb + 511 of the features, rows 640·cb … 640·cb + 639 of the
  padded mean weights and variance parameters, columns 640·cb … of the padded bias row, and writes block
  (nb, cb) of the 16384 × 1280 output. Every output index lies in exactly the block (n / 512, c / 640), so after
  the last point the output array is, entry by entry, the score formula of feature row n and of row c of the
  three padded class arrays.
-/
import proofs.«134766_j23914377904579_2_alg».proof.Proof.Gen.KernelIdeal.Frame
import proofs.«134766_j23914377904579_2_alg».proof.Proof.ScoresBody

noncomputable section

namespace Cert.KernelHeads

open Cert.KernelIdeal Cert.KernelIdeal.Gen Idealize.ShloMosaic Idealize.ShloMosaic.TcCoe Idealize.SL.Sem
open Idealize.ShloMosaic.ValueIdx Cert.Heads
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The padded scores: entry (n, c) from feature row n and row c of the padded class arrays. -/
def scoresPadded (X : S16384x1024.Idx → EReal) (W S : S1280x1024.Idx → EReal) (B : S1x1280.Idx → EReal) :
    S16384x1280.Idx → EReal :=
  fun i => scoreAt (fun k => X (ix2 (i 0) k)) (fun k => W (ix2 (i 1) k)) (fun k => S (ix2 (i 1) k)) (B (ix2 (0 : Fin 1) (i 1)))

/-- The index maps over the grid: the features move with the output's row block, the three class arrays with
    its column block, and the output's block indices stay in range. -/
theorem scores_idx_facts : ∀ t : Fin cfg0.N,
      win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 31 ∧ win0_4.index t (1 : Fin 2) ≤ 1 :=
  (by decide +kernel : ∀ t : Fin grid0.N, _)

/-- Every output block is some point's. -/
theorem scores_idx_onto : ∀ (q0 : Fin 32) (q1 : Fin 2), ∃ t : Fin cfg0.N, win0_4.index t = ![q0.val, q1.val] :=
  (by decide +kernel : ∀ (q0 : Fin 32) (q1 : Fin 2), ∃ t : Fin grid0.N, win0_4.index t = ![q0.val, q1.val])

/-- The feature block at point t, row p: row 512·nb + p of the features. -/
theorem scores_features_apply (c : Dev nD) (t : Fin cfg0.N) (p : Fin 512) (k : Fin 1024) (n : Fin 16384)
    (hn : n.val = win0_4.index t (0 : Fin 2) * 512 + p.val) :
    (iblk0 V c 0 t : Vec Ideal S512x1024 .f32) (ix2 p k) = (V c main_arg0 : S16384x1024.Idx → EReal) (ix2 n k) := by
  obtain ⟨e0, e1, -⟩ := scores_idx_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 512 + 1 * p.val = n.val; rw [e0, hn]; omega
  | ⟨1, _⟩ => show win0_0.index t (1 : Fin 2) * 1024 + 1 * k.val = k.val; rw [e1]; omega

/-- The mean-weight block at point t, row q: row 640·cb + q of the padded mean weights. -/
theorem scores_weights_apply (c : Dev nD) (t : Fin cfg0.N) (q : Fin 640) (k : Fin 1024) (r : Fin 1280)
    (hr : r.val = win0_4.index t (1 : Fin 2) * 640 + q.val) :
    (iblk0 V c 1 t : Vec Ideal S640x1024 .f32) (ix2 q k) = (V c main_v0 : S1280x1024.Idx → EReal) (ix2 r k) := by
  obtain ⟨-, -, e0, e1, -⟩ := scores_idx_facts t
  show V c main_v0 (((cfg0.win 1).blk t).view.emb (ix2 q k)) = V c main_v0 (ix2 r k)
  refine congrArg (V c main_v0) (funext fun a => Fin.ext ?_)
  match a with
  | ⟨0, _⟩ => show win0_1.index t (0 : Fin 2) * 640 + 1 * q.val = r.val; rw [e0, hr]; omega
  | ⟨1, _⟩ => show win0_1.index t (1 : Fin 2) * 1024 + 1 * k.val = k.val; rw [e1]; omega

/-- The variance-parameter block at point t, row q: row 640·cb + q of the padded parameters. -/
theorem scores_params_apply (c : Dev nD) (t : Fin cfg0.N) (q : Fin 640) (k : Fin 1024) (r : Fin 1280)
    (hr : r.val = win0_4.index t (1 : Fin 2) * 640 + q.val) :
    (iblk0 V c 2 t : Vec Ideal S640x1024 .f32) (ix2 q k) = (V c main_v1 : S1280x1024.Idx → EReal) (ix2 r k) := by
  obtain ⟨-, -, -, -, e0, e1, -⟩ := scores_idx_facts t
  show V c main_v1 (((cfg0.win 2).blk t).view.emb (ix2 q k)) = V c main_v1 (ix2 r k)
  refine congrArg (V c main_v1) (funext fun a => Fin.ext ?_)
  match a with
  | ⟨0, _⟩ => show win0_2.index t (0 : Fin 2) * 640 + 1 * q.val = r.val; rw [e0, hr]; omega
  | ⟨1, _⟩ => show win0_2.index t (1 : Fin 2) * 1024 + 1 * k.val = k.val; rw [e1]; omega

/-- The bias block at point t, column q: column 640·cb + q of the padded bias row. -/
theorem scores_bias_apply (c : Dev nD) (t : Fin cfg0.N) (q : Fin 640) (r : Fin 1280)
    (hr : r.val = win0_4.index t (1 : Fin 2) * 640 + q.val) :
    (iblk0 V c 3 t : Vec Ideal S1x640 .f32) (ix2 (0 : Fin 1) q) = (V c main_v3 : S1x1280.Idx → EReal) (ix2 (0 : Fin 1) r) := by
  obtain ⟨-, -, -, -, -, -, e0, e1, -⟩ := scores_idx_facts t
  show V c main_v3 (((cfg0.win 3).blk t).view.emb (ix2 (0 : Fin 1) q)) = V c main_v3 (ix2 (0 : Fin 1) r)
  refine congrArg (V c main_v3) (funext fun a => Fin.ext ?_)
  match a with
  | ⟨0, _⟩ => show win0_3.index t (0 : Fin 2) * 1 + 1 * 0 = 0; rw [e0]
  | ⟨1, _⟩ => show win0_3.index t (1 : Fin 2) * 640 + 1 * q.val = r.val; rw [e1, hr]; omega

/-- What point t writes back is block t of the padded scores of the arrays as the region finds them. -/
theorem scores_flushed (c : Dev nD) (t : Fin cfg0.N) :
    (dat0 V c).flushed 4 t = ((cfg0.win 4).blk t).view.read (Elt Ideal)
      (scoresPadded (V c main_arg0) (V c main_v0) (V c main_v1) (V c main_v3)) := by
  show (cfg0.win 4).cut (grid0.coords t) ((dat0 V c).after 4 t) = _
  rw [after0_4]
  unfold out0_4
  rw [View.canon_unit_zero offsets_zero]
  simp only [View.ld_unit_zero (S := S512x1024) offsets_zero, View.ld_unit_zero (S := S640x1024) offsets_zero,
    View.ld_unit_zero (S := S1x640) offsets_zero]
  funext j
  obtain ⟨p, q, rfl⟩ : ∃ (p : Fin 512) (q : Fin 640), j = ix2 p q := ⟨j 0, j 1, eq_ix2 j⟩
  refine (scores_payload_apply _ _ _ _ p q).trans ?_
  have hr : ((((cfg0.win 4).blk t).view.emb (ix2 p q)) 0).val = win0_4.index t (0 : Fin 2) * 512 + p.val := by
    show win0_4.index t (0 : Fin 2) * 512 + 1 * p.val = _; omega
  have hc : ((((cfg0.win 4).blk t).view.emb (ix2 p q)) 1).val = win0_4.index t (1 : Fin 2) * 640 + q.val := by
    show win0_4.index t (1 : Fin 2) * 640 + 1 * q.val = _; omega
  show _ = scoresPadded (V c main_arg0) (V c main_v0) (V c main_v1) (V c main_v3) (((cfg0.win 4).blk t).view.emb (ix2 p q))
  unfold scoresPadded
  refine congr (congr (congr (congrArg scoreAt (funext fun k => ?_)) (funext fun k => ?_)) (funext fun k => ?_)) ?_
  · exact scores_features_apply V c t p k _ hr
  · exact scores_weights_apply V c t q k _ hc
  · exact scores_params_apply V c t q k _ hc
  · exact scores_bias_apply V c t q _ hc

/-- An index of the output array is in point t's block iff each coordinate is in the block's range. -/
theorem scores_mem_blk (t : Fin cfg0.N) (i : S16384x1280.Idx) :
    i ∈ ((cfg0.win 4).blk t).view.set ↔ ∀ a : Fin 2, win0_4.index t a * S512x640.size a ≤ (i a).val
      ∧ (i a).val < win0_4.index t a * S512x640.size a + S512x640.size a := by
  show i ∈ ((View.whole main_v7).slice (win0_4.rect t)).set ↔ _
  rw [View.set_slice_whole, Rect.mem_set_unit]
  exact Iff.rfl

/-- The blocks cover the output array: index (n, c) is in the block (n / 512, c / 640). -/
theorem scores_cover (i : S16384x1280.Idx) :
    ∃ t : Fin cfg0.N, (cfg0.win 4).flush t = true ∧ i ∈ ((cfg0.win 4).blk t).view.set := by
  have hi0 : (i 0).val < 16384 := (i 0).isLt
  have hi1 : (i 1).val < 1280 := (i 1).isLt
  obtain ⟨t, ht⟩ := scores_idx_onto ⟨(i 0).val / 512, by omega⟩ ⟨(i 1).val / 640, by omega⟩
  have q0 : win0_4.index t (0 : Fin 2) = (i 0).val / 512 := congrFun ht 0
  have q1 : win0_4.index t (1 : Fin 2) = (i 1).val / 640 := congrFun ht 1
  refine ⟨t, flush0_4 t, ?_⟩
  rw [scores_mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 640 ≤ (i 1).val ∧ (i 1).val < win0_4.index t (1 : Fin 2) * 640 + 640; omega

/-- After the region the output array holds the padded scores of the arrays the region found. -/
theorem scores_final (c : Dev nD) :
    (dat0 V c).arrAt 4 cfg0.N = scoresPadded (V c main_arg0) (V c main_v0) (V c main_v1) (V c main_v3) :=
  (dat0 V c).arrAt_eq_of_cover 4 _ (fun t _ => scores_flushed V c t) scores_cover

end Cert.KernelHeads

end
-- ==== Proof.BboxBody.lean ====
/-
  One grid point of the box-delta kernel. It holds a block of 512 feature rows, a block of 1664 rows of the
  padded regression weights and 1664 padded biases as one row, and writes the 512 × 1664 block whose entry
  (p, q) is the sum over the 1024 features of the products of feature row p and weight row q, plus bias q.
-/
import proofs.«134766_j23914377904579_2_alg».proof.Proof.Gen.KernelIdeal.Skeleton
import proofs.«134766_j23914377904579_2_alg».proof.Proof.Heads
import Idealize.ShloMosaic.Lib.Pipeline.Value
import Idealize.ShloMosaic.Lib.ValueLayout
import Idealize.ShloMosaic.PureOps.Ideal.Laws

noncomputable section

namespace Cert.KernelHeads

open Cert.KernelIdeal Cert.KernelIdeal.Gen Idealize.ShloMosaic Idealize.ShloMosaic.ValueIdx Cert.Heads

/-- The left operand's index for output (p, q) and contraction index `kk`: row p … -/
theorem bbox_lhs_0 (j : S512x1664.Idx) (kk : dot_S512x1024_S1664x1024_S512x1664_1_1_0_0_n_n.contr.Idx) :
    (dot_S512x1024_S1664x1024_S512x1664_1_1_0_0_n_n.lhsIdx j kk 0).val = (j 0).val := by
  unfold DotDims.lhsIdx
  rw [dif_neg (show ¬(0 : Fin S512x1024.rank) ∈ dot_S512x1024_S1664x1024_S512x1664_1_1_0_0_n_n.lhsBatch by decide), dif_pos (show (0 : Fin S512x1024.rank) ∈ dot_S512x1024_S1664x1024_S512x1664_1_1_0_0_n_n.lhsNonContracting by decide)]
  rfl
/-- … column the contraction coordinate. -/
theorem bbox_lhs_1 (j : S512x1664.Idx) (kk : dot_S512x1024_S1664x1024_S512x1664_1_1_0_0_n_n.contr.Idx) :
    (dot_S512x1024_S1664x1024_S512x1664_1_1_0_0_n_n.lhsIdx j kk 1).val = (kk ⟨0, by decide⟩).val :=
  dot_S512x1024_S1664x1024_S512x1664_1_1_0_0_n_n.lhsIdx_val_of_single rfl j kk
/-- The right operand's index: row q … -/
theorem bbox_rhs_0 (j : S512x1664.Idx) (kk : dot_S512x1024_S1664x1024_S512x1664_1_1_0_0_n_n.contr.Idx) :
    (dot_S512x1024_S1664x1024_S512x1664_1_1_0_0_n_n.rhsIdx j kk 0).val = (j 1).val := by
  unfold DotDims.rhsIdx
  rw [dif_neg (show ¬(0 : Fin S1664x1024.rank) ∈ dot_S512x1024_S1664x1024_S512x1664_1_1_0_0_n_n.rhsBatch by decide), dif_pos (show (0 : Fin S1664x1024.rank) ∈ dot_S512x1024_S1664x1024_S512x1664_1_1_0_0_n_n.rhsNonContracting by decide)]
  rfl
/-- … column the contraction coordinate. -/
theorem bbox_rhs_1 (j : S512x1664.Idx) (kk : dot_S512x1024_S1664x1024_S512x1664_1_1_0_0_n_n.contr.Idx) :
    (dot_S512x1024_S1664x1024_S512x1664_1_1_0_0_n_n.rhsIdx j kk 1).val = (kk ⟨0, by decide⟩).val :=
  dot_S512x1024_S1664x1024_S512x1664_1_1_0_0_n_n.rhsIdx_val_of_single rfl j kk

/-- A block of feature rows against a block of weight rows, both contracted on their 1024 features, into a zero
    accumulator: entry (p, q) is the sum over the features of the products of row p and row q. -/
theorem bbox_matmul_apply {φ₁ φ₂ : FTy} (A : FVec Ideal S512x1024 φ₁) (B : FVec Ideal S1664x1024 φ₂) (p : Fin 512) (q : Fin 1664) :
    matmul (F := Ideal) dot_S512x1024_S1664x1024_S512x1664_1_1_0_0_n_n none A B (constant (F := Ideal) S512x1664 .f32 0x00000000#32) (ix2 p q)
      = ∑ k : Fin 1024, A (ix2 p k) * B (ix2 q k) := by
  show FloatOps.matmul dot_S512x1024_S1664x1024_S512x1664_1_1_0_0_n_n none A B (constant (F := Ideal) S512x1664 .f32 0x00000000#32) (ix2 p q) = _
  rw [Ideal.matmul_constant_zero_apply, ← Equiv.sum_comp (contrEquiv1 dot_S512x1024_S1664x1024_S512x1664_1_1_0_0_n_n 1024 rfl rfl).symm]
  refine Finset.sum_congr rfl fun k _ => ?_
  have hk := contrEquiv1_symm_val dot_S512x1024_S1664x1024_S512x1664_1_1_0_0_n_n 1024 rfl rfl k
  have el : dot_S512x1024_S1664x1024_S512x1664_1_1_0_0_n_n.lhsIdx (ix2 p q) ((contrEquiv1 dot_S512x1024_S1664x1024_S512x1664_1_1_0_0_n_n 1024 rfl rfl).symm k) = ix2 p k := funext fun a => Fin.ext (by
    match a with
    | ⟨0, _⟩ => exact bbox_lhs_0 _ _
    | ⟨1, _⟩ => exact (bbox_lhs_1 _ _).trans hk)
  have er : dot_S512x1024_S1664x1024_S512x1664_1_1_0_0_n_n.rhsIdx (ix2 p q) ((contrEquiv1 dot_S512x1024_S1664x1024_S512x1664_1_1_0_0_n_n 1024 rfl rfl).symm k) = ix2 q k := funext fun a => Fin.ext (by
    match a with
    | ⟨0, _⟩ => exact bbox_rhs_0 _ _
    | ⟨1, _⟩ => exact (bbox_rhs_1 _ _).trans hk)
  rw [el, er]

/-- The block the box-delta kernel stores, at (p, q): the delta of the loaded feature row p against the loaded
    weight row q and bias q. -/
theorem bbox_payload_apply (x0 : Vec Ideal S512x1024 .f32) (x1 : Vec Ideal S1664x1024 .f32) (x2 : Vec Ideal S1x1664 .f32)
    (p : Fin 512) (q : Fin 1664) :
    k1_pay1 (F := Ideal) x0 x1 x2 (ix2 p q)
      = deltaAt (fun k => x0 (ix2 p k)) (fun k => x1 (ix2 q k)) (x2 (ix2 (0 : Fin 1) q)) := by
  unfold k1_pay1 deltaAt
  dsimp only
  rw [shapeCast_self, shapeCast_self]
  refine congrArg₂ (· + ·) ?_ ?_
  · exact bbox_matmul_apply _ _ p q
  · exact broadcastTo_1b_ab_apply _ _ p q

end Cert.KernelHeads

end
-- ==== Proof.BboxArray.lean ====
/-
  The box-delta region as a whole. Its grid is 3 column blocks × 32 proposal blocks; point t with output block
  index (nb, rb) reads proposal rows 512·nb … of the features, rows 1664·rb … of the padded regression weights,
  columns 1664·rb … of the padded bias row, and writes block (nb, rb) of the 16384 × 4992 output. Every output
  index lies in the block (n / 512, r / 1664), so after the last point the output array is, entry by entry, the
  sum over the features of feature row n times padded weight row r, plus padded bias r.
-/
import proofs.«134766_j23914377904579_2_alg».proof.Proof.Gen.KernelIdeal.Frame
import proofs.«134766_j23914377904579_2_alg».proof.Proof.BboxBody

noncomputable section

namespace Cert.KernelHeads

open Cert.KernelIdeal Cert.KernelIdeal.Gen Idealize.ShloMosaic Idealize.ShloMosaic.TcCoe Idealize.SL.Sem
open Idealize.ShloMosaic.ValueIdx Cert.Heads
open Idealize.ShloMosaic.Pipeline (Dat)

variable (V : (c : Dev nD) → (b : Ref sig .tc) → Buf (Elt Ideal) ((c : Thread nD τ).loc b))

theorem bbox_offsets_zero : (![0, 0] : Fin 2 → Nat) = fun _ => 0 := funext fun a => by fin_cases a <;> rfl

/-- The padded box deltas: entry (n, r) from feature row n, padded weight row r and padded bias r. -/
def deltasPadded (X : S16384x1024.Idx → EReal) (W : S4992x1024.Idx → EReal) (B : S1x4992.Idx → EReal) :
    S16384x4992.Idx → EReal :=
  fun i => deltaAt (fun k => X (ix2 (i 0) k)) (fun k => W (ix2 (i 1) k)) (B (ix2 (0 : Fin 1) (i 1)))

/-- The index maps over the grid: the features move with the output's row block, the weights and the bias row
    with its column block, and the output's block indices stay in range. -/
theorem bbox_idx_facts : ∀ t : Fin cfg1.N,
      win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 31 ∧ win1_3.index t (1 : Fin 2) ≤ 2 :=
  (by decide +kernel : ∀ t : Fin grid1.N, _)

/-- Every output block is some point's. -/
theorem bbox_idx_onto : ∀ (q0 : Fin 32) (q1 : Fin 3), ∃ t : Fin cfg1.N, win1_3.index t = ![q0.val, q1.val] :=
  (by decide +kernel : ∀ (q0 : Fin 32) (q1 : Fin 3), ∃ t : Fin grid1.N, win1_3.index t = ![q0.val, q1.val])

/-- The feature block at point t, row p: row 512·nb + p of the features. -/
theorem bbox_features_apply (c : Dev nD) (t : Fin cfg1.N) (p : Fin 512) (k : Fin 1024) (n : Fin 16384)
    (hn : n.val = win1_3.index t (0 : Fin 2) * 512 + p.val) :
    (iblk1 V c 0 t : Vec Ideal S512x1024 .f32) (ix2 p k) = (V c main_arg0 : S16384x1024.Idx → EReal) (ix2 n k) := by
  obtain ⟨e0, e1, -⟩ := bbox_idx_facts t
  show V c main_arg0 (((cfg1.win 0).blk t).view.emb (ix2 p k)) = V c main_arg0 (ix2 n k)
  refine congrArg (V c main_arg0) (funext fun a => Fin.ext ?_)
  match a with
  | ⟨0, _⟩ => show win1_0.index t (0 : Fin 2) * 512 + 1 * p.val = n.val; rw [e0, hn]; omega
  | ⟨1, _⟩ => show win1_0.index t (1 : Fin 2) * 1024 + 1 * k.val = k.val; rw [e1]; omega

/-- The weight block at point t, row q: row 1664·rb + q of the padded regression weights. -/
theorem bbox_weights_apply (c : Dev nD) (t : Fin cfg1.N) (q : Fin 1664) (k : Fin 1024) (r : Fin 4992)
    (hr : r.val = win1_3.index t (1 : Fin 2) * 1664 + q.val) :
    (iblk1 V c 1 t : Vec Ideal S1664x1024 .f32) (ix2 q k) = (V c main_v4 : S4992x1024.Idx → EReal) (ix2 r k) := by
  obtain ⟨-, -, e0, e1, -⟩ := bbox_idx_facts t
  show V c main_v4 (((cfg1.win 1).blk t).view.emb (ix2 q k)) = V c main_v4 (ix2 r k)
  refine congrArg (V c main_v4) (funext fun a => Fin.ext ?_)
  match a with
  | ⟨0, _⟩ => show win1_1.index t (0 : Fin 2) * 1664 + 1 * q.val = r.val; rw [e0, hr]; omega
  | ⟨1, _⟩ => show win1_1.index t (1 : Fin 2) * 1024 + 1 * k.val = k.val; rw [e1]; omega

/-- The bias block at point t, column q: column 1664·rb + q of the padded bias row. -/
theorem bbox_bias_apply (c : Dev nD) (t : Fin cfg1.N) (q : Fin 1664) (r : Fin 4992)
    (hr : r.val = win1_3.index t (1 : Fin 2) * 1664 + q.val) :
    (iblk1 V c 2 t : Vec Ideal S1x1664 .f32) (ix2 (0 : Fin 1) q) = (V c main_v6 : S1x4992.Idx → EReal) (ix2 (0 : Fin 1) r) := by
  obtain ⟨-, -, -, -, e0, e1, -⟩ := bbox_idx_facts t
  show V c main_v6 (((cfg1.win 2).blk t).view.emb (ix2 (0 : Fin 1) q)) = V c main_v6 (ix2 (0 : Fin 1) r)
  refine congrArg (V c main_v6) (funext fun a => Fin.ext ?_)
  match a with
  | ⟨0, _⟩ => show win1_2.index t (0 : Fin 2) * 1 + 1 * 0 = 0; rw [e0]
  | ⟨1, _⟩ => show win1_2.index t (1 : Fin 2) * 1664 + 1 * q.val = r.val; rw [e1, hr]; omega

/-- What point t writes back is block t of the padded deltas of the arrays as the region finds them. -/
theorem bbox_flushed (c : Dev nD) (t : Fin cfg1.N) :
    (dat1 V c).flushed 3 t = ((cfg1.win 3).blk t).view.read (Elt Ideal)
      (deltasPadded (V c main_arg0) (V c main_v4) (V c main_v6)) := by
  show (cfg1.win 3).cut (grid1.coords t) ((dat1 V c).after 3 t) = _
  rw [after1_3]
  unfold out1_3
  rw [View.canon_unit_zero bbox_offsets_zero]
  simp only [View.ld_unit_zero (S := S512x1024) bbox_offsets_zero, View.ld_unit_zero (S := S1664x1024) bbox_offsets_zero,
    View.ld_unit_zero (S := S1x1664) bbox_offsets_zero]
  funext j
  obtain ⟨p, q, rfl⟩ : ∃ (p : Fin 512) (q : Fin 1664), j = ix2 p q := ⟨j 0, j 1, eq_ix2 j⟩
  refine (bbox_payload_apply _ _ _ p q).trans ?_
  have hr : ((((cfg1.win 3).blk t).view.emb (ix2 p q)) 0).val = win1_3.index t (0 : Fin 2) * 512 + p.val := by
    show win1_3.index t (0 : Fin 2) * 512 + 1 * p.val = _; omega
  have hc : ((((cfg1.win 3).blk t).view.emb (ix2 p q)) 1).val = win1_3.index t (1 : Fin 2) * 1664 + q.val := by
    show win1_3.index t (1 : Fin 2) * 1664 + 1 * q.val = _; omega
  show _ = deltasPadded (V c main_arg0) (V c main_v4) (V c main_v6) (((cfg1.win 3).blk t).view.emb (ix2 p q))
  unfold deltasPadded
  refine congr (congr (congrArg deltaAt (funext fun k => ?_)) (funext fun k => ?_)) ?_
  · exact bbox_features_apply V c t p k _ hr
  · exact bbox_weights_apply V c t q k _ hc
  · exact bbox_bias_apply V c t q _ hc

/-- An index of the output array is in point t's block iff each coordinate is in the block's range. -/
theorem bbox_mem_blk (t : Fin cfg1.N) (i : S16384x4992.Idx) :
    i ∈ ((cfg1.win 3).blk t).view.set ↔ ∀ a : Fin 2, win1_3.index t a * S512x1664.size a ≤ (i a).val
      ∧ (i a).val < win1_3.index t a * S512x1664.size a + S512x1664.size a := by
  show i ∈ ((View.whole main_v8).slice (win1_3.rect t)).set ↔ _
  rw [View.set_slice_whole, Rect.mem_set_unit]
  exact Iff.rfl

/-- The blocks cover the output array: index (n, r) is in the block (n / 512, r / 1664). -/
theorem bbox_cover (i : S16384x4992.Idx) :
    ∃ t : Fin cfg1.N, (cfg1.win 3).flush t = true ∧ i ∈ ((cfg1.win 3).blk t).view.set := by
  have hi0 : (i 0).val < 16384 := (i 0).isLt
  have hi1 : (i 1).val < 4992 := (i 1).isLt
  obtain ⟨t, ht⟩ := bbox_idx_onto ⟨(i 0).val / 512, by omega⟩ ⟨(i 1).val / 1664, by omega⟩
  have q0 : win1_3.index t (0 : Fin 2) = (i 0).val / 512 := congrFun ht 0
  have q1 : win1_3.index t (1 : Fin 2) = (i 1).val / 1664 := congrFun ht 1
  refine ⟨t, flush1_3 t, ?_⟩
  rw [bbox_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1664 ≤ (i 1).val ∧ (i 1).val < win1_3.index t (1 : Fin 2) * 1664 + 1664; omega

/-- After the region the output array holds the padded deltas of the arrays the region found. -/
theorem bbox_final (c : Dev nD) :
    (dat1 V c).arrAt 3 cfg1.N = deltasPadded (V c main_arg0) (V c main_v4) (V c main_v6) :=
  (dat1 V c).arrAt_eq_of_cover 3 _ (fun t _ => bbox_flushed V c t) bbox_cover

end Cert.KernelHeads

end
-- ==== Proof.HostSide.lean ====
/-
  The host operations around the two regions, and the kernel program's two results.

  Before the regions the program pads: the mean weights, the variance parameters and the regression weights get
  rows of zeros below, the two bias vectors get zeros behind and become one-row matrices; the features are used
  as they are. A padded array read at a row (or column) inside the original's extent is the original there.
  After the regions the program cuts the first 1231 and the first 4920 columns out of the two padded outputs.
  A padded output's column c depends only on row c of the padded class arrays; for c inside the cut that row is
  the original's, so each result is the specification's array: the padding rows never reach a result.
-/
import proofs.«134766_j23914377904579_2_alg».proof.Proof.Gen.KernelIdeal.Frame
import proofs.«134766_j23914377904579_2_alg».proof.Proof.ScoresArray
import proofs.«134766_j23914377904579_2_alg».proof.Proof.BboxArray
import Idealize.ShloMosaic.Lib.KernelVsHost
import Idealize.ShloMosaic.Lib.ValueLayout
import Idealize.ShloMosaic.Lib.StableHlo.Run

noncomputable section

namespace Cert.KernelHeads

open Cert.KernelIdeal Cert.KernelIdeal.Gen Idealize.ShloMosaic Idealize.ShloMosaic.TcCoe Idealize.SL.Sem Idealize.ShloMosaic.StableHlo
open Idealize.ShloMosaic.ValueIdx Cert.Heads

variable (m : (ℓ : Loc nD τ sig) → Buf (Elt Ideal) ℓ) (ρ : Dev nD → PrngReg)

/-! ## What the scores region finds -/

/-- The features are as launched. -/
theorem entry0_features (c : Dev nD) : V11 m ρ c main_arg0 = m ((c : Thread nD τ).loc main_arg0) := by
  show W11 m ρ c (Proc.devRef .tc main_arg0) = _
  dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
  after_results

/-- The padded mean weights at a row inside the original's 1231 rows are the mean weights there. -/
theorem entry0_weights_apply (c : Dev nD) (r : Fin 1280) (k : Fin 1024) (hr : r.val < 1231) :
    (V11 m ρ c main_v0 : S1280x1024.Idx → EReal) (ix2 r k)
      = (m ((c : Thread nD τ).loc main_arg1) : S1231x1024.Idx → EReal) (ix2 ⟨r.val, hr⟩ k) := by
  have e : (V11 m ρ c main_v0 : S1280x1024.Idx → EReal) = pad S1280x1024 ![0, 0] ![49, 0] ![0, 0]
      (m ((c : Thread nD τ).loc main_arg1) : S1231x1024.Idx → EReal) (sitofp (F := Ideal) .f32 (constantI S_ 32 0#32))
      pads_S1231x1024_S1280x1024_0490_000 h_S_ := by
    show W11 m ρ c (Proc.devRef .tc main_v0) = _
    dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
    after_results
    rfl
  rw [e]
  refine pad_apply_of_inside _ _ _ _ _ pads_S1231x1024_S1280x1024_0490_000 h_S_ (ix2 r k) (ix2 ⟨r.val, hr⟩ k) fun a => ?_
  match a with
  | ⟨0, _⟩ => show r.val = 0 + r.val * (0 + 1); omega
  | ⟨1, _⟩ => show k.val = 0 + k.val * (0 + 1); omega

/-- The padded variance parameters at a row inside the original's 1231 rows are the parameters there. -/
theorem entry0_params_apply (c : Dev nD) (r : Fin 1280) (k : Fin 1024) (hr : r.val < 1231) :
    (V11 m ρ c main_v1 : S1280x1024.Idx → EReal) (ix2 r k)
      = (m ((c : Thread nD τ).loc main_arg3) : S1231x1024.Idx → EReal) (ix2 ⟨r.val, hr⟩ k) := by
  have e : (V11 m ρ c main_v1 : S1280x1024.Idx → EReal) = pad S1280x1024 ![0, 0] ![49, 0] ![0, 0]
      (m ((c : Thread nD τ).loc main_arg3) : S1231x1024.Idx → EReal) (sitofp (F := Ideal) .f32 (constantI S_ 32 0#32))
      pads_S1231x1024_S1280x1024_0490_000 h_S_ := by
    show W11 m ρ c (Proc.devRef .tc main_v1) = _
    dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
    after_results
    rfl
  rw [e]
  refine pad_apply_of_inside _ _ _ _ _ pads_S1231x1024_S1280x1024_0490_000 h_S_ (ix2 r k) (ix2 ⟨r.val, hr⟩ k) fun a => ?_
  match a with
  | ⟨0, _⟩ => show r.val = 0 + r.val * (0 + 1); omega
  | ⟨1, _⟩ => show k.val = 0 + k.val * (0 + 1); omega

/-- The padded bias row at a column inside the original's 1231 entries is the bias there. -/
theorem entry0_bias_apply (c : Dev nD) (r : Fin 1280) (hr : r.val < 1231) :
    (V11 m ρ c main_v3 : S1x1280.Idx → EReal) (ix2 (0 : Fin 1) r)
      = (m ((c : Thread nD τ).loc main_arg2) : S1231.Idx → EReal) (ix1 ⟨r.val, hr⟩) := by
  have e : (V11 m ρ c main_v3 : S1x1280.Idx → EReal) = shapeCast S1x1280 (pad S1280 ![0] ![49] ![0]
      (m ((c : Thread nD τ).loc main_arg2) : S1231.Idx → EReal) (sitofp (F := Ideal) .f32 (constantI S_ 32 0#32))
      pads_S1231_S1280_0490 h_S_) shapeCasts_S1280_S1x1280 := by
    show W11 m ρ c (Proc.devRef .tc main_v3) = _
    dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
    after_results
    rfl
  rw [e]
  refine (shapeCast_a_1a_apply _ shapeCasts_S1280_S1x1280 (0 : Fin 1) r).trans ?_
  refine pad_apply_of_inside _ _ _ _ _ pads_S1231_S1280_0490 h_S_ (ix1 r) (ix1 ⟨r.val, hr⟩) fun a => ?_
  match a with
  | ⟨0, _⟩ => show r.val = 0 + r.val * (0 + 1); omega

/-! ## What the box-delta region finds: what the host left, the scores region having written only its output -/

/-- The features are still as launched: the scores region only read them. -/
theorem entry1_features (c : Dev nD) : V12 m ρ c main_arg0 = m ((c : Thread nD τ).loc main_arg0) :=
  ((W12_arr m ρ c 0).trans (((dat0 (V11 m ρ) c).arrAt_in 0 rfl _).trans (A_eq0 (V11 m ρ) c 0))).trans (entry0_features m ρ c)

/-- The padded regression weights at a row inside the original's 4920 rows are the weights there. -/
theorem entry1_weights_apply (c : Dev nD) (r : Fin 4992) (k : Fin 1024) (hr : r.val < 4920) :
    (V12 m ρ c main_v4 : S4992x1024.Idx → EReal) (ix2 r k)
      = (m ((c : Thread nD τ).loc main_arg4) : S4920x1024.Idx → EReal) (ix2 ⟨r.val, hr⟩ k) := by
  have e : (V12 m ρ c main_v4 : S4992x1024.Idx → EReal) = pad S4992x1024 ![0, 0] ![72, 0] ![0, 0]
      (m ((c : Thread nD τ).loc main_arg4) : S4920x1024.Idx → EReal) (sitofp (F := Ideal) .f32 (constantI S_ 32 0#32))
      pads_S4920x1024_S4992x1024_0720_000 h_S_ := by
    refine (W12_of_ne m ρ c main_v4 (by decide)).trans ?_
    dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
    after_results
    rfl
  rw [e]
  refine pad_apply_of_inside _ _ _ _ _ pads_S4920x1024_S4992x1024_0720_000 h_S_ (ix2 r k) (ix2 ⟨r.val, hr⟩ k) fun a => ?_
  match a with
  | ⟨0, _⟩ => show r.val = 0 + r.val * (0 + 1); omega
  | ⟨1, _⟩ => show k.val = 0 + k.val * (0 + 1); omega

/-- The padded bias row at a column inside the original's 4920 entries is the bias there. -/
theorem entry1_bias_apply (c : Dev nD) (r : Fin 4992) (hr : r.val < 4920) :
    (V12 m ρ c main_v6 : S1x4992.Idx → EReal) (ix2 (0 : Fin 1) r)
      = (m ((c : Thread nD τ).loc main_arg5) : S4920.Idx → EReal) (ix1 ⟨r.val, hr⟩) := by
  have e : (V12 m ρ c main_v6 : S1x4992.Idx → EReal) = shapeCast S1x4992 (pad S4992 ![0] ![72] ![0]
      (m ((c : Thread nD τ).loc main_arg5) : S4920.Idx → EReal) (sitofp (F := Ideal) .f32 (constantI S_ 32 0#32))
      pads_S4920_S4992_0720 h_S_) shapeCasts_S4992_S1x4992 := by
    refine (W12_of_ne m ρ c main_v6 (by decide)).trans ?_
    dsimp only [W11, W10, W9, W8, W7, W6, W5, W4, W3, W2, W1, W0, hostOps0, hostOps0_1, hostOps0_2, hostOps0_3, hostOps0_4, hostOps0_5, hostOps0_6, hostOps0_7, hostOps0_8, hostOps0_9, hostOps0_10]
    after_results
    rfl
  rw [e]
  refine (shapeCast_a_1a_apply _ shapeCasts_S4992_S1x4992 (0 : Fin 1) r).trans ?_
  refine pad_apply_of_inside _ _ _ _ _ pads_S4920_S4992_0720 h_S_ (ix1 r) (ix1 ⟨r.val, hr⟩) fun a => ?_
  match a with
  | ⟨0, _⟩ => show r.val = 0 + r.val * (0 + 1); omega

/-! ## The two results -/

/-- The first result is the scores of the launched arrays. -/
theorem kernel_scores (c : Dev nD) :
    (W14 m ρ c (Proc.devRef .tc main_v9) : S16384x1231.Idx → EReal)
      = scores (m ((c : Thread nD τ).loc main_arg0)) (m ((c : Thread nD τ).loc main_arg1))
          (m ((c : Thread nD τ).loc main_arg3)) (m ((c : Thread nD τ).loc main_arg2)) := by
  have e : (W14 m ρ c (Proc.devRef .tc main_v9) : S16384x1231.Idx → EReal)
      = extractStridedSlice S16384x1231 ![0, 0] (W13 m ρ c (Proc.devRef .tc main_v7)) slices_S16384x1280_S16384x1231_0_0 := by
    dsimp only [W14, hostOps2]
    after_results
  have h7 : (W13 m ρ c (Proc.devRef .tc main_v7) : S16384x1280.Idx → EReal)
      = scoresPadded (V11 m ρ c main_arg0) (V11 m ρ c main_v0) (V11 m ρ c main_v1) (V11 m ρ c main_v3) :=
    (W13_of_ne m ρ c main_v7 (by decide)).trans ((W12_arr m ρ c 4).trans (scores_final (V11 m ρ) c))
  rw [e, h7]
  funext i
  obtain ⟨n, cc, rfl⟩ : ∃ (n : Fin 16384) (cc : Fin 1231), i = ix2 n cc := ⟨i 0, i 1, eq_ix2 i⟩
  have hc : cc.val < 1280 := by have := cc.isLt; omega
  refine (slice2_axis1_apply 0 _ slices_S16384x1280_S16384x1231_0_0 n cc ⟨cc.val, hc⟩ (Nat.zero_add _).symm).trans ?_
  show scoreAt (fun k => V11 m ρ c main_arg0 (ix2 n k)) (fun k => V11 m ρ c main_v0 (ix2 ⟨cc.val, hc⟩ k))
      (fun k => V11 m ρ c main_v1 (ix2 ⟨cc.val, hc⟩ k)) (V11 m ρ c main_v3 (ix2 (0 : Fin 1) ⟨cc.val, hc⟩))
    = scoreAt (fun k => m ((c : Thread nD τ).loc main_arg0) (ix2 n k)) (fun k => m ((c : Thread nD τ).loc main_arg1) (ix2 cc k))
      (fun k => m ((c : Thread nD τ).loc main_arg3) (ix2 cc k)) (m ((c : Thread nD τ).loc main_arg2) (ix1 cc))
  refine congr (congr (congr (congrArg scoreAt (funext fun k => ?_)) (funext fun k => ?_)) (funext fun k => ?_)) ?_
  · rw [entry0_features]
  · exact entry0_weights_apply m ρ c ⟨cc.val, hc⟩ k cc.isLt
  · exact entry0_params_apply m ρ c ⟨cc.val, hc⟩ k cc.isLt
  · exact entry0_bias_apply m ρ c ⟨cc.val, hc⟩ cc.isLt

/-- The second result is the box deltas of the launched arrays. -/
theorem kernel_deltas (c : Dev nD) :
    (W14 m ρ c (Proc.devRef .tc main_v10) : S16384x4920.Idx → EReal)
      = deltas (m ((c : Thread nD τ).loc main_arg0)) (m ((c : Thread nD τ).loc main_arg4)) (m ((c : Thread nD τ).loc main_arg5)) := by
  have e : (W14 m ρ c (Proc.devRef .tc main_v10) : S16384x4920.Idx → EReal)
      = extractStridedSlice S16384x4920 ![0, 0] (W13 m ρ c (Proc.devRef .tc main_v8)) slices_S16384x4992_S16384x4920_0_0 := by
    dsimp only [W14, hostOps2]
    after_results
  have h8 : (W13 m ρ c (Proc.devRef .tc main_v8) : S16384x4992.Idx → EReal)
      = deltasPadded (V12 m ρ c main_arg0) (V12 m ρ c main_v4) (V12 m ρ c main_v6) :=
    (W13_arr m ρ c 3).trans (bbox_final (V12 m ρ) c)
  rw [e, h8]
  funext i
  obtain ⟨n, rr, rfl⟩ : ∃ (n : Fin 16384) (rr : Fin 4920), i = ix2 n rr := ⟨i 0, i 1, eq_ix2 i⟩
  have hc : rr.val < 4992 := by have := rr.isLt; omega
  refine (slice2_axis1_apply 0 _ slices_S16384x4992_S16384x4920_0_0 n rr ⟨rr.val, hc⟩ (Nat.zero_add _).symm).trans ?_
  show deltaAt (fun k => V12 m ρ c main_arg0 (ix2 n k)) (fun k => V12 m ρ c main_v4 (ix2 ⟨rr.val, hc⟩ k))
      (V12 m ρ c main_v6 (ix2 (0 : Fin 1) ⟨rr.val, hc⟩))
    = deltaAt (fun k => m ((c : Thread nD τ).loc main_arg0) (ix2 n k)) (fun k => m ((c : Thread nD τ).loc main_arg4) (ix2 rr k))
      (m ((c : Thread nD τ).loc main_arg5) (ix1 rr))
  refine congr (congr (congrArg deltaAt (funext fun k => ?_)) (funext fun k => ?_)) ?_
  · rw [entry1_features]
  · exact entry1_weights_apply m ρ c ⟨rr.val, hc⟩ k rr.isLt
  · exact entry1_bias_apply m ρ c ⟨rr.val, hc⟩ rr.isLt

end Cert.KernelHeads

end
-- ==== Proof.KernelRun.lean ====
/-
  The kernel program's run, with its two results kept. From any launch memory every weakly fair execution of the
  program ends, without a fault, in a state where the two result arrays hold what the last host operations leave
  there (the contents after the program's last stretch of host operations, folded from the launch memory through
  the pads, the two regions' write-backs and the two cuts) and the six argument arrays hold what they held at
  launch. The frame statement keeps only the arguments out of the same final state; here the two results are read
  out of it as well.
-/
import proofs.«134766_j23914377904579_2_alg».proof.Proof.Gen.KernelIdeal.Frame

set_option maxRecDepth 16384

noncomputable section

namespace Cert.KernelHeads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two results at the last
    boundary's contents and the arguments as launched. -/
theorem run_results : θ_run defs (onTc (τ := τ) (main (F := F))) ⟨m, fun _ => 0, ρ⟩ (fun r => ∀ c : Dev nD,
      r.2.mem ((c.tc : Thread nD τ).loc main_v9) = W14 m ρ c (Proc.devRef .tc main_v9)
      ∧ r.2.mem ((c.tc : Thread nD τ).loc main_v10) = W14 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v9 (by decide)),
       h c _ (mem_uc main_v10 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelHeads

end
-- ==== Proof.lean ====
/-
  A detection head with uncertainty: from 16384 proposal feature rows x (1024 features each) the layer computes
  1231 classification scores and 4920 box deltas per proposal. With mean weights w_c, variance parameters s_c
  and bias b_c for class c,
      m = Σ_k x_k · w_ck,     v = Σ_k x_k² · softplus(s_ck),     score = (20 · (1 + (π/8) · v)^(-1/2)) · m + b_c,
  and the box deltas are a plain affine map, Σ_k x_k · u_rk + d_r.

  The kernel program pads the class arrays with zero rows up to 1280 and 4992 rows, computes the two padded
  outputs block by block (512 proposals × 640 classes, 512 proposals × 1664 delta columns per grid point, the
  full 1024 features in every block), and cuts the padding columns off again. The reference computes the
  same two arrays whole. On the extended reals a rounding to bf16 is the identity and a matrix product is the
  sum over the features whatever the blocking, so entry (n, c) of either program's scores is the one formula
  above of feature row n and class row c, and likewise for the deltas: a padded output's column c reads only
  row c of the padded class arrays, which inside the cut is the original row, so the zero rows never reach a
  result. The two spellings of softplus differ only in a guard that cannot fire and in writing -a as 0 - a.
  No finiteness of the inputs is used: the two sides are the same expression entry by entry.

  The three frames are the programs' runs with the results forgotten; the kernel's idealization rewrote nothing,
  so it preserves the kernel trivially.
-/
import proofs.«134766_j23914377904579_2_alg».proof.Defs
import proofs.«134766_j23914377904579_2_alg».proof.Proof.Gen.Kernel
import proofs.«134766_j23914377904579_2_alg».proof.Proof.Gen.Kernel.Skeleton
import proofs.«134766_j23914377904579_2_alg».proof.Proof.Gen.Kernel.Launch
import proofs.«134766_j23914377904579_2_alg».proof.Proof.Gen.Kernel.Points
import proofs.«134766_j23914377904579_2_alg».proof.Proof.Gen.Kernel.Frame
import proofs.«134766_j23914377904579_2_alg».proof.Proof.Gen.KernelIdeal
import proofs.«134766_j23914377904579_2_alg».proof.Proof.Gen.KernelIdeal.Skeleton
import proofs.«134766_j23914377904579_2_alg».proof.Proof.Gen.KernelIdeal.Launch
import proofs.«134766_j23914377904579_2_alg».proof.Proof.Gen.KernelIdeal.Points
import proofs.«134766_j23914377904579_2_alg».proof.Proof.Gen.KernelIdeal.Frame
import proofs.«134766_j23914377904579_2_alg».proof.Proof.Gen.ReferenceIdeal
import proofs.«134766_j23914377904579_2_alg».proof.Proof.Gen.Pre_finite_inputs
import proofs.«134766_j23914377904579_2_alg».proof.Proof.Gen.ReferenceIdeal.Run
import proofs.«134766_j23914377904579_2_alg».proof.Proof.Gen.ReferenceIdeal.Read
import proofs.«134766_j23914377904579_2_alg».proof.Proof.RefHeads
import proofs.«134766_j23914377904579_2_alg».proof.Proof.HostSide
import proofs.«134766_j23914377904579_2_alg».proof.Proof.KernelRun
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten on the way to the extended reals. -/
theorem preserves : Cert.preserves_Kernel_KernelIdeal := trivial

/-- Both programs end with the scores and the box deltas of the launched arrays. -/
theorem algebraic : Cert.algebraic_KernelIdeal_ReferenceIdeal := by
  intro m ρ m' ρ' _ hagree
  refine ⟨fun c => Cert.Heads.scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)),
    fun c => Cert.Heads.deltas (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelHeads.kernel_scores m ρ c),
        (h c).2.1.trans (Cert.KernelHeads.kernel_deltas m ρ c), (h c).2.2⟩)
      (Cert.KernelHeads.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v14_eq, Cert.RefHeads.scores_stage, (hagree c).1, (hagree c).2.1,
        (hagree c).2.2.1, (hagree c).2.2.2.1]
    · rw [Cert.ReferenceIdeal.Read.val_main_v18_eq, Cert.RefHeads.deltas_stage, (hagree c).1, (hagree c).2.2.2.2.1,
        (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
